-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S512x1x3 : Shape := ⟨3, ![512, 1, 3]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S512x1x3 : S_.BroadcastsInDim S512x1x3 (![] : Fin 0 → Fin S512x1x3.rank)
  reducesTo_S512x1x3_S_d0_1_2 : S512x1x3.ReducesTo [0, 1, 2] S_

variable [Facts]

def fn {F : FTy → Type} [FloatOps F] (main_arg0 : FVec F S64x512x28x28 .f32) (main_arg1 : FVec F S512x1x3 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S512x1x3 .f32 := Host.absf main_arg1
  let main_cst_0 : FVec F S_ .f32 := constant S_ .f32 0x7F800000#32
  let main_v5 : FVec F S512x1x3 .f32 := broadcastInDim S512x1x3 ![] bcast_S_S512x1x3 main_cst_0
  let main_v6 : IVec S512x1x3 1 := cmpf .olt main_v4 main_v5
  let main_c_1 : IVec S_ 1 := constantI S_ 1 1#1
  let main_v7 : IVec S_ 1 := (fun x v => Host.reduce IntOp.andi x v reducesTo_S512x1x3_S_d0_1_2 h_S_) main_v6 main_c_1
  let main_v8 : IVec S_ 1 := andi main_v3 main_v7
  main_v8
-- ==== Kernel.lean ====
abbrev S64x512x28x28 : Shape := ⟨4, ![64, 512, 28, 28]⟩
abbrev S512x1x3 : Shape := ⟨3, ![512, 1, 3]⟩
abbrev S512x3 : Shape := ⟨2, ![512, 3]⟩
abbrev S3x512 : Shape := ⟨2, ![3, 512]⟩
abbrev S_ : Shape := ⟨0, ![]⟩
abbrev S1x512x28x28 : Shape := ⟨4, ![1, 512, 28, 28]⟩
abbrev S1x512x28 : Shape := ⟨3, ![1, 512, 28]⟩
abbrev S1x512 : Shape := ⟨2, ![1, 512]⟩
abbrev S1x1 : Shape := ⟨2, ![1, 1]⟩
abbrev S1x511 : Shape := ⟨2, ![1, 511]⟩
abbrev S1x512x1x1 : Shape := ⟨4, ![1, 512, 1, 1]⟩

abbrev nBuf : Space → Nat
  | .hbm => 8
  | .vmem => 5
  | .smem => 0
  | _ => 0

abbrev bufTy : (tb : Table) → Fin (tcTables nBuf tb) → BufTy
  | .hbm, ⟨0, _⟩ => ⟨S64x512x28x28, .f32⟩
  | .hbm, ⟨1, _⟩ => ⟨S512x1x3, .f32⟩
  | .hbm, ⟨2, _⟩ => ⟨S512x3, .f32⟩
  | .hbm, ⟨3, _⟩ => ⟨S3x512, .f32⟩
  | .hbm, ⟨4, _⟩ => ⟨S_, .f32⟩
  | .hbm, ⟨5, _⟩ => ⟨S3x512, .f32⟩
  | .hbm, ⟨6, _⟩ => ⟨S3x512, .f32⟩
  | .hbm, ⟨7, _⟩ => ⟨S64x512x28x28, .f32⟩
  | .local _ .vmem, ⟨0, _⟩ => ⟨S1x512x28x28, .f32⟩
  | .local _ .vmem, ⟨1, _⟩ => ⟨S1x512x28x28, .f32⟩
  | .local _ .vmem, ⟨2, _⟩ => ⟨S3x512, .f32⟩
  | .local _ .vmem, ⟨3, _⟩ => ⟨S1x512x28x28, .f32⟩
  | .local _ .vmem, ⟨4, _⟩ => ⟨S1x512x28x28, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x28x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x1x3_S512x3 : S512x1x3.ShapeCasts S512x3
  transposes_S512x3_S3x512_1_0 : S512x3.Transposes [1, 0] S3x512
  bcast_S_S3x512 : S_.BroadcastsInDim S3x512 (![] : Fin 0 → Fin S3x512.rank)
  inb_S1x512x28x28_S1x512x28x28_0_0_0_0 : ∀ a, (![0, 0, 0, 0] : Fin 4 → Nat) a + S1x512x28x28.size a ≤ S1x512x28x28.size a
  h_S1x512x28x28 : 0 < S1x512x28x28.numel
  reduces_S1x512x28x28_S1x512x28 : S1x512x28x28.Reduces [2] S1x512x28
  reduces_S1x512x28_S1x512 : S1x512x28.Reduces [2] S1x512
  inb_S3x512_S1x512_0_0 : ∀ a, (![0, 0] : Fin 2 → Nat) a + S1x512.size a ≤ S3x512.size a
  h_S1x512 : 0 < S1x512.numel
  shapeCasts_S1x512_S1x512 : S1x512.ShapeCasts S1x512
  slices_S1x512_o0_0_S1x511 : S1x512.Slices ![0, 0] S1x511
  concatenates_S1x1_S1x511_S1x512_d1 : Shape.Concatenates [S1x1, S1x511] S1x512 1
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  slices_S1x512_o0_1_S1x511 : S1x512.Slices ![0, 1] S1x511
  concatenates_S1x511_S1x1_S1x512_d1 : Shape.Concatenates [S1x511, S1x1] S1x512 1
  shapeCasts_S1x512_S1x512x1x1 : S1x512.ShapeCasts S1x512x1x1
  broadcasts_S1x512x1x1_S1x512x28x28 : S1x512x1x1.Broadcasts S1x512x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x28x28.size a ≤ S64x512x28x28.size a
  hwx0_0 : ∀ i : grid0.Coords, EltTy.bits .f32 = 32 ∨ (Rect.block (s := S64x512x28x28) S1x512x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x28x28.size a ≤ S64x512x28x28.size a
  hwx0_2 : ∀ i : grid0.Coords, EltTy.bits .f32 = 32 ∨ (Rect.block (s := S64x512x28x28) S1x512x28x28.size (cc0_transform_2 i) (hinb0_2 i)).WholeWords (EltTy.packing .f32)

variable [Facts₀]

abbrev win0_0 : Pipeline.Window sig grid0 :=
  Pipeline.Window.ofSpec (Memref.whole main_arg0) S1x512x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x28x28.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S512x1x3 : Shape := ⟨3, ![512, 1, 3]⟩
abbrev S64x512x784 : Shape := ⟨3, ![64, 512, 784]⟩
abbrev S512x3 : Shape := ⟨2, ![512, 3]⟩
abbrev S3x512 : Shape := ⟨2, ![3, 512]⟩
abbrev S_ : Shape := ⟨0, ![]⟩
abbrev S1x512x784 : Shape := ⟨3, ![1, 512, 784]⟩
abbrev S1x512 : Shape := ⟨2, ![1, 512]⟩
abbrev S1x1 : Shape := ⟨2, ![1, 1]⟩
abbrev S1x514 : Shape := ⟨2, ![1, 514]⟩
abbrev S1x512x1 : Shape := ⟨3, ![1, 512, 1]⟩

abbrev nBuf : Space → Nat
  | .hbm => 10
  | .vmem => 5
  | .smem => 0
  | _ => 0

abbrev bufTy : (tb : Table) → Fin (tcTables nBuf tb) → BufTy
  | .hbm, ⟨0, _⟩ => ⟨S64x512x28x28, .f32⟩
  | .hbm, ⟨1, _⟩ => ⟨S512x1x3, .f32⟩
  | .hbm, ⟨2, _⟩ => ⟨S64x512x784, .f32⟩
  | .hbm, ⟨3, _⟩ => ⟨S512x3, .f32⟩
  | .hbm, ⟨4, _⟩ => ⟨S3x512, .f32⟩
  | .hbm, ⟨5, _⟩ => ⟨S_, .f32⟩
  | .hbm, ⟨6, _⟩ => ⟨S3x512, .f32⟩
  | .hbm, ⟨7, _⟩ => ⟨S3x512, .f32⟩
  | .hbm, ⟨8, _⟩ => ⟨S64x512x784, .f32⟩
  | .hbm, ⟨9, _⟩ => ⟨S64x512x28x28, .f32⟩
  | .local _ .vmem, ⟨0, _⟩ => ⟨S1x512x784, .f32⟩
  | .local _ .vmem, ⟨1, _⟩ => ⟨S1x512x784, .f32⟩
  | .local _ .vmem, ⟨2, _⟩ => ⟨S3x512, .f32⟩
  | .local _ .vmem, ⟨3, _⟩ => ⟨S1x512x784, .f32⟩
  | .local _ .vmem, ⟨4, _⟩ => ⟨S1x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x512x28x28_S64x512x784 : S64x512x28x28.ShapeCasts S64x512x784
  shapeCasts_S512x1x3_S512x3 : S512x1x3.ShapeCasts S512x3
  transposes_S512x3_S3x512_1_0 : S512x3.Transposes [1, 0] S3x512
  bcast_S_S3x512 : S_.BroadcastsInDim S3x512 (![] : Fin 0 → Fin S3x512.rank)
  inb_S1x512x784_S1x512x784_0_0_0 : ∀ a, (![0, 0, 0] : Fin 3 → Nat) a + S1x512x784.size a ≤ S1x512x784.size a
  h_S1x512x784 : 0 < S1x512x784.numel
  shapeCasts_S1x512x784_S1x512x784 : S1x512x784.ShapeCasts S1x512x784
  reduces_S1x512x784_S1x512 : S1x512x784.Reduces [2] S1x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  concatenates_S1x1_S1x512_S1x1_S1x514_d1 : Shape.Concatenates [S1x1, S1x512, S1x1] S1x514 1
  slices_S3x512_o0_0_S1x512 : S3x512.Slices ![0, 0] S1x512
  slices_S1x514_o0_0_S1x512 : S1x514.Slices ![0, 0] S1x512
  slices_S3x512_o1_0_S1x512 : S3x512.Slices ![1, 0] S1x512
  slices_S1x514_o0_1_S1x512 : S1x514.Slices ![0, 1] S1x512
  slices_S3x512_o2_0_S1x512 : S3x512.Slices ![2, 0] S1x512
  slices_S1x514_o0_2_S1x512 : S1x514.Slices ![0, 2] S1x512
  shapeCasts_S1x512_S1x512x1 : S1x512.ShapeCasts S1x512x1
  broadcasts_S1x512x1_S1x512x784 : S1x512x1.Broadcasts S1x512x784
  shapeCasts_S64x512x784_S64x512x28x28 : S64x512x784.ShapeCasts S64x512x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S64x512x784.size a
  hwx0_0 : ∀ i : grid0.Coords, EltTy.bits .f32 = 32 ∨ (Rect.block (s := S64x512x784) S1x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x784.size a ≤ S64x512x784.size a
  hwx0_2 : ∀ i : grid0.Coords, EltTy.bits .f32 = 32 ∨ (Rect.block (s := S64x512x784) S1x512x784.size (cc0_transform_2 i) (hinb0_2 i)).WholeWords (EltTy.packing .f32)

variable [Facts₀]

abbrev win0_0 : Pipeline.Window sig grid0 :=
  Pipeline.Window.ofSpec (Memref.whole main_v0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibPlaneReads.lean ====
/-
  Reading a block with two trailing spatial axes, on the extended reals: the sum along the third of four axes as a
  sum over that coordinate; a matrix of per-(row, channel) values re-shaped to [a, b, 1, 1] and broadcast over the two
  trailing axes; the two trailing axes of a rank-4 array flattened into one (row-major) and un-flattened again, read at
  an index; and a sum over the flattened axis as the double sum over the two coordinates. Nothing here mentions a program.
-/
import Idealize.ShloMosaic.PureOps.Ideal.Laws
import Idealize.ShloMosaic.Lib.ValueIdx
import Idealize.ShloMosaic.Lib.Pipeline.Value

open scoped BigOperators

namespace Cert.Lib.PlaneReads

open Idealize.ShloMosaic Idealize.ShloMosaic.ValueIdx

/-! ## A sum along the third axis of a rank-4 block -/

section AxisSum
variable {a b c d : Nat} {φ : FTy}

/-- The sum along the THIRD axis of an a×b×c×d block is at (p, q, s) the sum over r of the block at (p, q, r, s). -/
theorem sum_third_axis_apply (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (p : Fin a) (q : Fin b) (s : Fin d) :
    multiReduction .add [2] ⟨3, ![a, b, d]⟩ src acc h hφ hacc (ix3 p q s) = ∑ r : Fin c, src (ix4 p q r s) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl
  | ⟨3, _⟩ => rfl

end AxisSum

/-! ## Per-(row, channel) values broadcast over two trailing axes -/

section Layout
variable {α : Type} {a b c d e : Nat}

/-- An a×b matrix viewed as a×b×1×1 and broadcast along two new trailing axes of extents c and d reads the matrix. -/
theorem broadcast_plane_apply (x : (⟨2, ![a, b]⟩ : Shape).Idx → α)
    (h₁ : (⟨2, ![a, b]⟩ : Shape).ShapeCasts ⟨4, ![a, b, 1, 1]⟩)
    (h₂ : (⟨4, ![a, b, 1, 1]⟩ : Shape).Broadcasts ⟨4, ![a, b, c, d]⟩) (p : Fin a) (q : Fin b) (r : Fin c) (s : Fin d) :
    broadcastTo ⟨4, ![a, b, c, d]⟩ (shapeCast ⟨4, ![a, b, 1, 1]⟩ x h₁) h₂ (ix4 p q r s) = x (ix2 p q) := by
  refine (broadcastTo_apply _ h₂ _ (ix4 p q 0 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
    | ⟨3, _⟩ => rfl
  · refine shapeCast_apply x h₁ _ _ ?_
    rw [Shape.rowMajor_val_two, Shape.rowMajor_val_four]
    show p.val * b + q.val = ((p.val * b + q.val) * 1 + 0) * 1 + 0
    omega

/-- The two trailing axes of an a×b×c×d array flattened row-major into one axis of extent e = c·d: the flattened
    array at (p, q, k), where k = r·d + s, is the array at (p, q, r, s). -/
theorem flatten_apply (x : (⟨4, ![a, b, c, d]⟩ : Shape).Idx → α)
    (h : (⟨4, ![a, b, c, d]⟩ : Shape).ShapeCasts ⟨3, ![a, b, e]⟩) (he : e = c * d)
    (p : Fin a) (q : Fin b) (r : Fin c) (s : Fin d) (k : Fin e) (hk : k.val = r.val * d + s.val) :
    shapeCast ⟨3, ![a, b, e]⟩ x h (ix3 p q k) = x (ix4 p q r s) := by
  refine shapeCast_apply x h _ _ ?_
  rw [Shape.rowMajor_val_three, Shape.rowMajor_val_four]
  show ((p.val * b + q.val) * c + r.val) * d + s.val = (p.val * b + q.val) * e + k.val
  rw [hk, he]; ring

/-- The last axis of an a×b×e array, e = c·d, split row-major into two of extents c and d: the split array at
    (p, q, r, s) is the array at (p, q, k) with k = r·d + s. -/
theorem unflatten_apply (x : (⟨3, ![a, b, e]⟩ : Shape).Idx → α)
    (h : (⟨3, ![a, b, e]⟩ : Shape).ShapeCasts ⟨4, ![a, b, c, d]⟩) (he : e = c * d)
    (p : Fin a) (q : Fin b) (r : Fin c) (s : Fin d) (k : Fin e) (hk : k.val = r.val * d + s.val) :
    shapeCast ⟨4, ![a, b, c, d]⟩ x h (ix4 p q r s) = x (ix3 p q k) := by
  refine shapeCast_apply x h _ _ ?_
  rw [Shape.rowMajor_val_three, Shape.rowMajor_val_four]
  show (p.val * b + q.val) * e + k.val = ((p.val * b + q.val) * c + r.val) * d + s.val
  rw [hk, he]; ring

end Layout

/-! ## A sum over the flattened axis -/

/-- The position r·d + s of the pair (r, s) on the flattened axis. -/
def flat {c d e : Nat} (he : e = c * d) (r : Fin c) (s : Fin d) : Fin e :=
  ⟨r.val * d + s.val, by
    subst he
    have hr := r.isLt; have hs := s.isLt
    calc r.val * d + s.val < r.val * d + d := by omega
      _ = (r.val + 1) * d := by ring
      _ ≤ c * d := Nat.mul_le_mul_right d hr⟩

theorem flat_val {c d e : Nat} (he : e = c * d) (r : Fin c) (s : Fin d) : (flat he r s).val = r.val * d + s.val := rfl

/-- In a commutative monoid a sum over the flattened axis of extent e = c·d is the double sum over the two
    coordinates, the inner one over the FIRST of them: the order in which a block is summed first down its rows and
    then along what is left. -/
theorem sum_flat {M : Type*} [AddCommMonoid M] {c d e : Nat} (he : e = c * d) (g : Fin e → M) :
    ∑ k : Fin e, g k = ∑ s : Fin d, ∑ r : Fin c, g (flat he r s) := by
  subst he
  rw [Finset.sum_comm, ← Fintype.sum_prod_type' (f := fun r s => g (flat rfl r s))]
  refine (Equiv.sum_comp finProdFinEquiv g).symm.trans (Finset.sum_congr rfl fun x _ => congrArg g (Fin.ext ?_))
  show x.2.val + d * x.1.val = x.1.val * d + x.2.val
  rw [Nat.mul_comm, Nat.add_comm]

end Cert.Lib.PlaneReads
-- ==== Proof.LibChannelShift.lean ====
/-
  A row of 512 per-channel values beside its two neighbours: the row shifted by one channel either way with a fill
  value at the vacated end, spelt as a two-piece concatenation of a fill cell and a 511-wide slice, and the same
  three rows spelt as the 512-wide slices at offsets 0, 1, 2 of the row padded by one fill cell on each side.
  Each is read at a channel. Nothing here mentions a program.
-/
import Idealize.ShloMosaic.Lib.ValueIdx
import Idealize.ShloMosaic.Lib.Pipeline.Value

namespace Cert.Lib.ChannelShift

open Idealize.ShloMosaic Idealize.ShloMosaic.ValueIdx

variable {α : Type}

/-- The value of the channel BEFORE channel c, the fill value z before the first channel. -/
def prev (z : α) (P : Fin 512 → α) (c : Fin 512) : α :=
  if h : c.val = 0 then z else P ⟨c.val - 1, by have := c.isLt; omega⟩

/-- The value of the channel AFTER channel c, the fill value z after the last channel. -/
def next (z : α) (P : Fin 512 → α) (c : Fin 512) : α :=
  if h : c.val + 1 < 512 then P ⟨c.val + 1, h⟩ else z

/-- A fill cell followed by the row's first 511 channels: at channel c the channel before it. -/
theorem fill_then_head_apply (z : α) (p : (⟨2, ![1, 512]⟩ : Shape).Idx → α)
    (hs : (⟨2, ![1, 512]⟩ : Shape).Slices ![0, 0] ⟨2, ![1, 511]⟩)
    (hc : Shape.Concatenates [⟨2, ![1, 1]⟩, ⟨2, ![1, 511]⟩] ⟨2, ![1, 512]⟩ 1) (c : Fin 512) :
    concatenate ⟨2, ![1, 512]⟩ 1 [⟨⟨2, ![1, 1]⟩, broadcast ⟨2, ![1, 1]⟩ z⟩,
        ⟨⟨2, ![1, 511]⟩, extractStridedSlice ⟨2, ![1, 511]⟩ ![0, 0] p hs⟩] hc (ix2 0 c)
      = prev z (fun c => p (ix2 0 c)) c := by
  unfold prev
  have hlt := c.isLt
  split_ifs with h0
  · refine (concatenate_pair_apply_left 1 _ _ hc (ix2 0 c) rfl (ix2 0 0) fun b => ?_).trans rfl
    match b with
    | ⟨0, _⟩ => rfl
    | ⟨1, _⟩ => exact h0.symm
  · refine (concatenate_pair_apply_right 1 _ _ hc (ix2 0 c) rfl rfl (ix2 0 ⟨c.val - 1, by omega⟩) (fun b hb => ?_) ?_).trans ?_
    · match b with
      | ⟨0, _⟩ => rfl
      | ⟨1, _⟩ => exact absurd rfl hb
    · show c.val - 1 + 1 = c.val
      omega
    · refine extractStridedSlice_apply _ p hs _ (ix2 0 ⟨c.val - 1, by omega⟩) fun a => ?_
      match a with
      | ⟨0, _⟩ => rfl
      | ⟨1, _⟩ => show c.val - 1 = 0 + (c.val - 1); omega

/-- The row's last 511 channels followed by a fill cell: at channel c the channel after it. -/
theorem tail_then_fill_apply (z : α) (p : (⟨2, ![1, 512]⟩ : Shape).Idx → α)
    (hs : (⟨2, ![1, 512]⟩ : Shape).Slices ![0, 1] ⟨2, ![1, 511]⟩)
    (hc : Shape.Concatenates [⟨2, ![1, 511]⟩, ⟨2, ![1, 1]⟩] ⟨2, ![1, 512]⟩ 1) (c : Fin 512) :
    concatenate ⟨2, ![1, 512]⟩ 1 [⟨⟨2, ![1, 511]⟩, extractStridedSlice ⟨2, ![1, 511]⟩ ![0, 1] p hs⟩,
        ⟨⟨2, ![1, 1]⟩, broadcast ⟨2, ![1, 1]⟩ z⟩] hc (ix2 0 c)
      = next z (fun c => p (ix2 0 c)) c := by
  unfold next
  have hlt := c.isLt
  split_ifs with h1
  · refine (concatenate_pair_apply_left 1 _ _ hc (ix2 0 c) rfl (ix2 0 ⟨c.val, by omega⟩) fun b => ?_).trans ?_
    · match b with
      | ⟨0, _⟩ => rfl
      | ⟨1, _⟩ => rfl
    · refine extractStridedSlice_apply _ p hs _ (ix2 0 ⟨c.val + 1, h1⟩) fun a => ?_
      match a with
      | ⟨0, _⟩ => rfl
      | ⟨1, _⟩ => show c.val + 1 = 1 + c.val; omega
  · refine (concatenate_pair_apply_right 1 _ _ hc (ix2 0 c) rfl rfl (ix2 0 0) (fun b hb => ?_) ?_).trans rfl
    · match b with
      | ⟨0, _⟩ => rfl
      | ⟨1, _⟩ => exact absurd rfl hb
    · show 0 + 511 = c.val
      omega

section Padded
variable (z : α) (p : (⟨2, ![1, 512]⟩ : Shape).Idx → α)
  (hc : Shape.Concatenates [⟨2, ![1, 1]⟩, ⟨2, ![1, 512]⟩, ⟨2, ![1, 1]⟩] ⟨2, ![1, 514]⟩ 1)

/-- The row padded by one fill cell on each side, at padded position c + 1: the row's channel c. -/
theorem padded_mid (k : Fin 514) (c : Fin 512) (hk : k.val = c.val + 1) :
    concatenate ⟨2, ![1, 514]⟩ 1 [⟨⟨2, ![1, 1]⟩, broadcast ⟨2, ![1, 1]⟩ z⟩, ⟨⟨2, ![1, 512]⟩, p⟩,
        ⟨⟨2, ![1, 1]⟩, broadcast ⟨2, ![1, 1]⟩ z⟩] hc (ix2 0 k) = p (ix2 0 c) := by
  refine concatenate_apply_piece 1 [⟨⟨2, ![1, 1]⟩, broadcast ⟨2, ![1, 1]⟩ z⟩, ⟨⟨2, ![1, 512]⟩, p⟩, ⟨⟨2, ![1, 1]⟩, broadcast ⟨2, ![1, 1]⟩ z⟩] hc (ix2 0 k) 1 (by show 1 < 3; omega) ⟨2, ![1, 512]⟩ p rfl rfl 1 rfl (ix2 0 c) (fun b hb => ?_) ?_
  · match b with
    | ⟨0, _⟩ => rfl
    | ⟨1, _⟩ => exact absurd rfl hb
  · show 1 + c.val = k.val
    omega

/-- At padded position 0: the fill value. -/
theorem padded_first (k : Fin 514) (hk : k.val = 0) :
    concatenate ⟨2, ![1, 514]⟩ 1 [⟨⟨2, ![1, 1]⟩, broadcast ⟨2, ![1, 1]⟩ z⟩, ⟨⟨2, ![1, 512]⟩, p⟩,
        ⟨⟨2, ![1, 1]⟩, broadcast ⟨2, ![1, 1]⟩ z⟩] hc (ix2 0 k) = z := by
  refine (concatenate_apply_piece 1 [⟨⟨2, ![1, 1]⟩, broadcast ⟨2, ![1, 1]⟩ z⟩, ⟨⟨2, ![1, 512]⟩, p⟩, ⟨⟨2, ![1, 1]⟩, broadcast ⟨2, ![1, 1]⟩ z⟩] hc (ix2 0 k) 0 (by show 0 < 3; omega) ⟨2, ![1, 1]⟩ (broadcast ⟨2, ![1, 1]⟩ z) rfl rfl 0 rfl (ix2 0 0) (fun b hb => ?_) ?_).trans rfl
  · match b with
    | ⟨0, _⟩ => rfl
    | ⟨1, _⟩ => exact absurd rfl hb
  · show 0 + 0 = k.val
    omega

/-- At padded position 513: the fill value. -/
theorem padded_last (k : Fin 514) (hk : k.val = 513) :
    concatenate ⟨2, ![1, 514]⟩ 1 [⟨⟨2, ![1, 1]⟩, broadcast ⟨2, ![1, 1]⟩ z⟩, ⟨⟨2, ![1, 512]⟩, p⟩,
        ⟨⟨2, ![1, 1]⟩, broadcast ⟨2, ![1, 1]⟩ z⟩] hc (ix2 0 k) = z := by
  refine (concatenate_apply_piece 1 [⟨⟨2, ![1, 1]⟩, broadcast ⟨2, ![1, 1]⟩ z⟩, ⟨⟨2, ![1, 512]⟩, p⟩, ⟨⟨2, ![1, 1]⟩, broadcast ⟨2, ![1, 1]⟩ z⟩] hc (ix2 0 k) 2 (by show 2 < 3; omega) ⟨2, ![1, 1]⟩ (broadcast ⟨2, ![1, 1]⟩ z) rfl rfl 513 rfl (ix2 0 0) (fun b hb => ?_) ?_).trans rfl
  · match b with
    | ⟨0, _⟩ => rfl
    | ⟨1, _⟩ => exact absurd rfl hb
  · show 513 + 0 = k.val
    omega

/-- The padded row's 512 positions from offset 0: at channel c the channel before it. -/
theorem padded_slice0_apply (hs : (⟨2, ![1, 514]⟩ : Shape).Slices ![0, 0] ⟨2, ![1, 512]⟩) (c : Fin 512) :
    extractStridedSlice ⟨2, ![1, 512]⟩ ![0, 0] (concatenate ⟨2, ![1, 514]⟩ 1 [⟨⟨2, ![1, 1]⟩, broadcast ⟨2, ![1, 1]⟩ z⟩,
        ⟨⟨2, ![1, 512]⟩, p⟩, ⟨⟨2, ![1, 1]⟩, broadcast ⟨2, ![1, 1]⟩ z⟩] hc) hs (ix2 0 c)
      = prev z (fun c => p (ix2 0 c)) c := by
  have hlt := c.isLt
  refine (extractStridedSlice_apply _ _ hs _ (ix2 0 ⟨c.val, by omega⟩) fun a => ?_).trans ?_
  · match a with
    | ⟨0, _⟩ => rfl
    | ⟨1, _⟩ => show c.val = 0 + c.val; omega
  · unfold prev
    split_ifs with h0
    · exact padded_first z p hc _ h0
    · exact padded_mid z p hc _ ⟨c.val - 1, by omega⟩ (by show c.val = c.val - 1 + 1; omega)

/-- From offset 1: the row itself. -/
theorem padded_slice1_apply (hs : (⟨2, ![1, 514]⟩ : Shape).Slices ![0, 1] ⟨2, ![1, 512]⟩) (c : Fin 512) :
    extractStridedSlice ⟨2, ![1, 512]⟩ ![0, 1] (concatenate ⟨2, ![1, 514]⟩ 1 [⟨⟨2, ![1, 1]⟩, broadcast ⟨2, ![1, 1]⟩ z⟩,
        ⟨⟨2, ![1, 512]⟩, p⟩, ⟨⟨2, ![1, 1]⟩, broadcast ⟨2, ![1, 1]⟩ z⟩] hc) hs (ix2 0 c)
      = p (ix2 0 c) := by
  have hlt := c.isLt
  refine (extractStridedSlice_apply _ _ hs _ (ix2 0 ⟨c.val + 1, by omega⟩) fun a => ?_).trans ?_
  · match a with
    | ⟨0, _⟩ => rfl
    | ⟨1, _⟩ => show c.val + 1 = 1 + c.val; omega
  · exact padded_mid z p hc _ c rfl

/-- From offset 2: at channel c the channel after it. -/
theorem padded_slice2_apply (hs : (⟨2, ![1, 514]⟩ : Shape).Slices ![0, 2] ⟨2, ![1, 512]⟩) (c : Fin 512) :
    extractStridedSlice ⟨2, ![1, 512]⟩ ![0, 2] (concatenate ⟨2, ![1, 514]⟩ 1 [⟨⟨2, ![1, 1]⟩, broadcast ⟨2, ![1, 1]⟩ z⟩,
        ⟨⟨2, ![1, 512]⟩, p⟩, ⟨⟨2, ![1, 1]⟩, broadcast ⟨2, ![1, 1]⟩ z⟩] hc) hs (ix2 0 c)
      = next z (fun c => p (ix2 0 c)) c := by
  have hlt := c.isLt
  refine (extractStridedSlice_apply _ _ hs _ (ix2 0 ⟨c.val + 2, by omega⟩) fun a => ?_).trans ?_
  · match a with
    | ⟨0, _⟩ => rfl
    | ⟨1, _⟩ => show c.val + 2 = 2 + c.val; omega
  · unfold next
    split_ifs with h1
    · exact padded_mid z p hc _ ⟨c.val + 1, h1⟩ rfl
    · exact padded_last z p hc _ (by show c.val + 2 = 513; omega)

end Padded

end Cert.Lib.ChannelShift
-- ==== Proof.EcaSpec.lean ====
/-
  The channel-attention map on the extended reals, as one function of the input x[b, c, h, w] and the three rows of
  taps W[j, c]. For a batch element b the pooled sum of channel c is P(c) = Σ_w Σ_h x[b, c, h, w]; the gate of channel c
  is the logistic function of z + W[0, c]·P(c − 1) + W[1, c]·P(c) + W[2, c]·P(c + 1), a neighbour outside the 512
  channels counting as the fill value z; and the result at (b, c, h, w) is x[b, c, h, w] times that gate.
-/
import Idealize.ShloMosaic.PureOps.Ideal
import Idealize.ShloMosaic.Lib.ValueIdx
import proofs.«124492_g2000404111516997_pallasbulk_667_3_alg».proof.Proof.LibChannelShift

open scoped BigOperators

noncomputable section

namespace Cert.Eca

open Idealize.ShloMosaic Idealize.ShloMosaic.ValueIdx Cert.Lib.ChannelShift

/-- The gate of channel c from the three tap rows w0, w1, w2 and the pooled sums P of the batch element. -/
def gate (z : EReal) (w0 w1 w2 P : Fin 512 → EReal) (c : Fin 512) : EReal :=
  Ideal.logistic (z + w0 c * prev z P c + w1 c * P c + w2 c * next z P c)

/-- The pooled sum of channel c of batch element b: over the columns, of the sum down each column. -/
def pool (x : (⟨4, ![64, 512, 28, 28]⟩ : Shape).Idx → EReal) (b : Fin 64) (c : Fin 512) : EReal :=
  ∑ w : Fin 28, ∑ h : Fin 28, x (ix4 b c h w)

/-- Row j of the taps as a function of the channel. -/
def tap (W : (⟨2, ![3, 512]⟩ : Shape).Idx → EReal) (j : Fin 3) (c : Fin 512) : EReal := W (ix2 j c)

/-- The taps as the kernels receive them, from the weight array w[c, 0, j]: the array re-shaped to 512×3, transposed to
    3×512, and every entry divided by the word 0x44440000 (the number of spatial positions, 784). -/
def taps (h₁ : (⟨3, ![512, 1, 3]⟩ : Shape).ShapeCasts ⟨2, ![512, 3]⟩) (h₂ : (⟨2, ![512, 3]⟩ : Shape).Transposes [1, 0] ⟨2, ![3, 512]⟩)
    (h₃ : (⟨0, ![]⟩ : Shape).BroadcastsInDim ⟨2, ![3, 512]⟩ (![] : Fin 0 → Fin 2))
    (w : (⟨3, ![512, 1, 3]⟩ : Shape).Idx → EReal) : (⟨2, ![3, 512]⟩ : Shape).Idx → EReal :=
  Host.divf (F := Ideal) (φ := .f32) (transpose ⟨2, ![3, 512]⟩ [1, 0] (shapeCast ⟨2, ![512, 3]⟩ w h₁) h₂)
    (broadcastInDim ⟨2, ![3, 512]⟩ ![] h₃ (constant (F := Ideal) ⟨0, ![]⟩ .f32 0x44440000#32))

/-- The whole result array: every entry of x scaled by the gate of its batch element and channel. -/
def scaled (z : EReal) (x : (⟨4, ![64, 512, 28, 28]⟩ : Shape).Idx → EReal) (W : (⟨2, ![3, 512]⟩ : Shape).Idx → EReal) :
    (⟨4, ![64, 512, 28, 28]⟩ : Shape).Idx → EReal :=
  fun i => x i * gate z (tap W 0) (tap W 1) (tap W 2) (pool x (i 0)) (i 1)

theorem scaled_apply (z : EReal) (x : (⟨4, ![64, 512, 28, 28]⟩ : Shape).Idx → EReal) (W : (⟨2, ![3, 512]⟩ : Shape).Idx → EReal)
    (b : Fin 64) (c : Fin 512) (h w : Fin 28) :
    scaled z x W (ix4 b c h w) = x (ix4 b c h w) * gate z (tap W 0) (tap W 1) (tap W 2) (pool x b) c := rfl

end Cert.Eca

end
-- ==== Proof.KernelBody.lean ====
/-
  What the kernel body computes for one batch element, on the extended reals. Its one store writes, at (0, c, h, w) of
  the block, the loaded entry x[0, c, h, w] times the gate of channel c: the logistic function of
  z + w0[c]·P(c − 1) + w1[c]·P(c) + w2[c]·P(c + 1), where w0, w1, w2 are the three loaded tap rows, z is the zero word,
  and P(c) = Σ_w Σ_h x[0, c, h, w] is the block summed first down its columns and then along its rows.
-/
import proofs.«124492_g2000404111516997_pallasbulk_667_3_alg».proof.Proof.Gen.KernelIdeal.Skeleton
import proofs.«124492_g2000404111516997_pallasbulk_667_3_alg».proof.Proof.LibBlockReads
import proofs.«124492_g2000404111516997_pallasbulk_667_3_alg».proof.Proof.LibPlaneReads
import proofs.«124492_g2000404111516997_pallasbulk_667_3_alg».proof.Proof.LibChannelShift
import proofs.«124492_g2000404111516997_pallasbulk_667_3_alg».proof.Proof.EcaSpec

open scoped BigOperators

noncomputable section

namespace Cert.KernelIdeal.Body

open Cert.KernelIdeal Cert.KernelIdeal.Gen Idealize.ShloMosaic Idealize.ShloMosaic.ValueIdx
open Cert.Lib.BlockReads Cert.Lib.PlaneReads Cert.Lib.ChannelShift Cert.Eca

/-- The fill value of the shifted rows and the start of the gate's sum: the zero word read at the ideal instance. -/
abbrev zeroWord : EReal := (Scalar.ofBits .f32 0x00000000#32 : Ideal .f32)

/-- The pooled sums of the block's channels. -/
def blockPool (v0 : Vec Ideal S1x512x28x28 .f32) (c : Fin 512) : EReal := ∑ w : Fin 28, ∑ h : Fin 28, v0 (ix4 0 c h w)

/-- The two lane reductions of the body, the first down the columns and the second along the rows, read at a channel. -/
theorem pooled_apply (v0 : Vec Ideal S1x512x28x28 .f32) (c : Fin 512) :
    multiReduction (F := Ideal) .add [2] S1x512
        (multiReduction .add [2] S1x512x28 v0 0x00000000#32 reduces_S1x512x28x28_S1x512x28 (.inl rfl) rfl)
        0x00000000#32 reduces_S1x512x28_S1x512 (.inl rfl) rfl (ix2 0 c) = blockPool v0 c :=
  (sum_last_axis_apply _ _ reduces_S1x512x28_S1x512 (.inl rfl) rfl 0 c).trans
    (Finset.sum_congr rfl fun w _ => sum_third_axis_apply v0 _ reduces_S1x512x28x28_S1x512x28 (.inl rfl) rfl 0 c w)

/-- The body's stored value at an entry of the block. -/
theorem pay_apply (v0 : Vec Ideal S1x512x28x28 .f32) (v4 v11 v15 : Vec Ideal S1x512 .f32) (c : Fin 512) (h w : Fin 28) :
    k0_pay1 v0 v4 v11 v15 (ix4 0 c h w)
      = v0 (ix4 0 c h w) * gate zeroWord (fun c => v4 (ix2 0 c)) (fun c => v11 (ix2 0 c)) (fun c => v15 (ix2 0 c)) (blockPool v0) c := by
  have hP : (fun c' : Fin 512 => multiReduction (F := Ideal) .add [2] S1x512
        (multiReduction .add [2] S1x512x28 v0 0x00000000#32 reduces_S1x512x28x28_S1x512x28 (.inl rfl) rfl)
        0x00000000#32 reduces_S1x512x28_S1x512 (.inl rfl) rfl (ix2 0 c')) = blockPool v0 := funext fun c' => pooled_apply v0 c'
  unfold k0_pay1
  simp only [shapeCast_self]
  refine (mulf_apply _ _ _).trans (congrArg (v0 (ix4 0 c h w) * ·) ?_)
  refine (broadcast_plane_apply _ _ _ 0 c h w).trans ?_
  unfold gate
  refine congrArg Ideal.logistic ?_
  refine congrArg₂ (· + ·) (congrArg₂ (· + ·) (congrArg₂ (· + ·) rfl (congrArg₂ (· * ·) rfl ?_)) (congrArg₂ (· * ·) rfl ?_)) (congrArg₂ (· * ·) rfl ?_)
  · exact (fill_then_head_apply _ _ _ _ c).trans (congrArg (fun P => prev zeroWord P c) hP)
  · exact pooled_apply v0 c
  · exact (tail_then_fill_apply _ _ _ _ c).trans (congrArg (fun P => next zeroWord P c) hP)

end Cert.KernelIdeal.Body

end
-- ==== Proof.KernelValue.lean ====
/-
  The kernel's result array as one function of its arguments, on the extended reals. Grid point t works on batch
  element t: its input block is x[t, :, :, :], its taps block is the whole 3×512 array of taps (the weights re-shaped,
  transposed and divided by 784 before the call), and what it writes back is block t of the scaled array
  x[b, c, h, w] · gate(b, c). The 64 blocks tile the result array, so after the run it holds the scaled array.
-/
import proofs.«124492_g2000404111516997_pallasbulk_667_3_alg».proof.Proof.Gen.KernelIdeal.Value
import proofs.«124492_g2000404111516997_pallasbulk_667_3_alg».proof.Proof.KernelBody
import Idealize.ShloMosaic.Lib.Pipeline.Value
import Idealize.ShloMosaic.Lib.StableHlo.Run

open scoped BigOperators

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body Idealize.ShloMosaic.ValueIdx Cert.Eca

variable (m : (ℓ : Loc nD τ sig) → Buf (Elt Ideal) ℓ) (ρ : Dev nD → PrngReg)

/-- The taps array the call receives, as a function of the weight argument. -/
theorem taps_eq (c : Dev nD) : (V m c main_v3 : S3x512.Idx → EReal)
    = taps shapeCasts_S512x1x3_S512x3 transposes_S512x3_S3x512_1_0 bcast_S_S3x512 (m ((c : Thread nD τ).loc main_arg1)) := by
  dsimp only [Gen.V, Gen.hostOps0]
  after_results
  rfl

/-- The blocks' positions: point t's input and output blocks are block t along the batch axis, the taps block is the
    whole array. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem hz4 : (![0, 0, 0, 0] : Fin 4 → Nat) = fun _ => 0 := funext fun a => by fin_cases a <;> rfl

/-- The batch element a grid point works on. -/
def batchOf (t : Fin cfg0.N) : Fin 64 := ⟨t.val, lt_of_lt_of_eq t.isLt N_0⟩

/-- One batch element: if the loaded block is x[b, :, :, :] and the loaded taps are W, the stored value at (0, c, h, w)
    is the scaled array at (b, c, h, w). -/
theorem point_eq (X : S64x512x28x28.Idx → EReal) (W : S3x512.Idx → EReal) (b : Fin 64)
    (x0 : Vec Ideal S1x512x28x28 .f32) (x1 : Vec Ideal S3x512 .f32)
    (h0 : ∀ (c : Fin 512) (h w : Fin 28), x0 (ix4 0 c h w) = X (ix4 b c h w)) (h1 : x1 = W)
    (c : Fin 512) (h w : Fin 28) :
    k0_pay1 x0 (View.ld x1 r0_1) (View.ld x1 r0_2) (View.ld x1 r0_3) (ix4 0 c h w) = scaled zeroWord X W (ix4 b c h w) := by
  subst h1
  rw [pay_apply, scaled_apply, h0]
  have e0 : (fun c : Fin 512 => View.ld x1 r0_1 (ix2 0 c)) = tap x1 0 := funext fun c => congrArg x1 (funext fun a => Fin.ext (by
    match a with
    | ⟨0, _⟩ => rfl
    | ⟨1, _⟩ => show 0 + 1 * c.val = c.val; omega))
  have e1 : (fun c : Fin 512 => View.ld x1 r0_2 (ix2 0 c)) = tap x1 1 := funext fun c => congrArg x1 (funext fun a => Fin.ext (by
    match a with
    | ⟨0, _⟩ => rfl
    | ⟨1, _⟩ => show 0 + 1 * c.val = c.val; omega))
  have e2 : (fun c : Fin 512 => View.ld x1 r0_3 (ix2 0 c)) = tap x1 2 := funext fun c => congrArg x1 (funext fun a => Fin.ext (by
    match a with
    | ⟨0, _⟩ => rfl
    | ⟨1, _⟩ => show 0 + 1 * c.val = c.val; omega))
  have eP : blockPool x0 = pool X b := funext fun c => Finset.sum_congr rfl fun w _ => Finset.sum_congr rfl fun h _ => h0 c h w
  rw [e0, e1, e2, eP]

/-- The input block at point t is the argument's batch element t. -/
theorem iblk0_apply (c : Dev nD) (t : Fin cfg0.N) (c' : Fin 512) (h w : Fin 28) :
    (iblk m c 0 t : Vec Ideal S1x512x28x28 .f32) (ix4 0 c' h w) = (V m c main_arg0 : S64x512x28x28.Idx → EReal) (ix4 (batchOf t) c' h w) := by
  obtain ⟨e0, e1, e2, e3, -⟩ := idx_facts t
  unfold iblk
  rw [View.read_apply]
  show V m c main_arg0 _ = V m c main_arg0 _
  refine congrArg _ (funext fun a => Fin.ext ?_)
  match a with
  | ⟨0, _⟩ => show win0_0.index t (0 : Fin 4) * 1 + 1 * 0 = t.val; omega
  | ⟨1, _⟩ => show win0_0.index t (1 : Fin 4) * 512 + 1 * c'.val = c'.val; omega
  | ⟨2, _⟩ => show win0_0.index t (2 : Fin 4) * 28 + 1 * h.val = h.val; omega
  | ⟨3, _⟩ => show win0_0.index t (3 : Fin 4) * 28 + 1 * w.val = w.val; omega

/-- The taps block at every point is the whole taps array. -/
theorem iblk1_eq (c : Dev nD) (t : Fin cfg0.N) :
    (iblk m c 1 t : Vec Ideal S3x512 .f32) = (V m c main_v3 : S3x512.Idx → EReal) := by
  obtain ⟨-, -, -, -, e4, e5, -⟩ := idx_facts t
  funext y
  unfold iblk
  rw [View.read_apply]
  show V m c main_v3 _ = V m c main_v3 _
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 512 + 1 * (y 1).val = (y 1).val; omega

/-- What point t writes back is block t of the scaled array. -/
theorem flushed_eq (c : Dev nD) (t : Fin cfg0.N) :
    (dats m 0 c).flushed 2 t = ((cfg0.win 2).blk t).view.read (Elt Ideal) (scaled zeroWord (V m c main_arg0) (V m c main_v3)) := by
  rw [flushed2]
  unfold out0_2
  rw [View.canon_unit_zero hz4]
  simp only [View.ld_unit_zero (S := S1x512x28x28) hz4]
  obtain ⟨-, -, -, -, -, -, e6, e7, e8, e9⟩ := idx_facts t
  funext j
  show k0_pay1 (iblk m c 0 t) (View.ld (iblk m c 1 t) r0_1) (View.ld (iblk m c 1 t) r0_2) (View.ld (iblk m c 1 t) r0_3) j
    = scaled zeroWord (V m c main_arg0) (V m c main_v3) (((cfg0.win 2).blk t).view.emb j)
  have hj : j = ix4 0 (j 1) (j 2) (j 3) := by
    funext a
    match a with
    | ⟨0, _⟩ => exact Fin.ext (by have hj0 : (j 0).val < 1 := (j 0).isLt; show (j 0).val = 0; omega)
    | ⟨1, _⟩ => rfl
    | ⟨2, _⟩ => rfl
    | ⟨3, _⟩ => rfl
  have hemb : ((cfg0.win 2).blk t).view.emb j = ix4 (batchOf t) (j 1) (j 2) (j 3) := by
    funext a; apply Fin.ext
    match a with
    | ⟨0, _⟩ => show win0_2.index t (0 : Fin 4) * 1 + 1 * (j 0).val = t.val; have hj0 : (j 0).val < 1 := (j 0).isLt; omega
    | ⟨1, _⟩ => show win0_2.index t (1 : Fin 4) * 512 + 1 * (j 1).val = (j 1).val; omega
    | ⟨2, _⟩ => show win0_2.index t (2 : Fin 4) * 28 + 1 * (j 2).val = (j 2).val; omega
    | ⟨3, _⟩ => show win0_2.index t (3 : Fin 4) * 28 + 1 * (j 3).val = (j 3).val; omega
  rw [hemb, hj]
  exact point_eq _ _ (batchOf t) _ _ (fun c' h w => iblk0_apply m c t c' h w) (iblk1_eq m c t) _ _ _

/-- An index of the result array is in point t's block iff each coordinate is in the block's range on its axis. -/
theorem mem_blk (t : Fin cfg0.N) (i : S64x512x28x28.Idx) :
    i ∈ ((cfg0.win 2).blk t).view.set ↔ ∀ a : Fin 4, win0_2.index t a * S1x512x28x28.size a ≤ (i a).val ∧ (i a).val < win0_2.index t a * S1x512x28x28.size a + S1x512x28x28.size a := by
  show i ∈ ((View.whole main_v4).slice (win0_2.rect t)).set ↔ _
  rw [View.set_slice_whole, Rect.mem_set_unit]
  exact Iff.rfl

/-- Every index (b, c, h, w) lies in block b, so the result array ends holding the scaled array. -/
theorem final (c : Dev nD) : (dats m 0 c).arrAt 2 cfg0.N
    = scaled zeroWord (m ((c : Thread nD τ).loc main_arg0))
        (taps shapeCasts_S512x1x3_S512x3 transposes_S512x3_S3x512_1_0 bcast_S_S3x512 (m ((c : Thread nD τ).loc main_arg1))) := by
  rw [← taps_eq m c, ← V_main_arg0 m c]
  refine (dats m 0 c).arrAt_eq_of_cover 2 _ (fun t _ => flushed_eq m c t) fun i => ?_
  have hi0 : (i 0).val < 64 := (i 0).isLt
  have hi1 : (i 1).val < 512 := (i 1).isLt
  have hi2 : (i 2).val < 28 := (i 2).isLt
  have hi3 : (i 3).val < 28 := (i 3).isLt
  have hN : (i 0).val < cfg0.N := by rw [show cfg0.N = 64 from N_0]; exact hi0
  refine ⟨⟨(i 0).val, hN⟩, flush0_2 _, ?_⟩
  rw [mem_blk]
  obtain ⟨-, -, -, -, -, -, e6', e7, e8, e9⟩ := idx_facts ⟨(i 0).val, hN⟩
  have e6 : win0_2.index ⟨(i 0).val, hN⟩ (0 : Fin 4) = (i 0).val := e6'
  intro a
  match a with
  | ⟨0, _⟩ => show win0_2.index _ (0 : Fin 4) * 1 ≤ (i 0).val ∧ (i 0).val < win0_2.index _ (0 : Fin 4) * 1 + 1; rw [e6]; omega
  | ⟨1, _⟩ => show win0_2.index _ (1 : Fin 4) * 512 ≤ (i 1).val ∧ (i 1).val < win0_2.index _ (1 : Fin 4) * 512 + 512; rw [e7]; omega
  | ⟨2, _⟩ => show win0_2.index _ (2 : Fin 4) * 28 ≤ (i 2).val ∧ (i 2).val < win0_2.index _ (2 : Fin 4) * 28 + 28; rw [e8]; omega
  | ⟨3, _⟩ => show win0_2.index _ (3 : Fin 4) * 28 ≤ (i 3).val ∧ (i 3).val < win0_2.index _ (3 : Fin 4) * 28 + 28; rw [e9]; omega

/-- The run: the result array at the scaled array of the arguments, the arguments unchanged. -/
theorem run : θ_run defs (onTc (τ := τ) (main (F := Ideal))) ⟨m, fun _ => 0, ρ⟩ fun r => ∀ c : Dev nD,
      r.2.mem ((c : Thread nD τ).loc main_v4) = scaled zeroWord (m ((c : Thread nD τ).loc main_arg0))
        (taps shapeCasts_S512x1x3_S512x3 transposes_S512x3_S3x512_1_0 bcast_S_S3x512 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole
end
-- ==== Proof.RefBody.lean ====
/-
  What the reference's kernel body computes for one batch element, on the extended reals. Its block is [1, 512, 784]:
  the two spatial axes arrive flattened. Its one store writes, at (0, c, k), the loaded entry x[0, c, k] times the gate
  of channel c: the logistic function of z + W[0, c]·P(c − 1) + W[1, c]·P(c) + W[2, c]·P(c + 1), where W is the loaded
  3×512 block of taps, z the zero word, P(c) = Σ_k x[0, c, k], and the neighbours are read from P padded by one zero
  cell on each side.
-/
import proofs.«124492_g2000404111516997_pallasbulk_667_3_alg».proof.Proof.Gen.ReferenceIdeal.Skeleton
import proofs.«124492_g2000404111516997_pallasbulk_667_3_alg».proof.Proof.LibBlockReads
import proofs.«124492_g2000404111516997_pallasbulk_667_3_alg».proof.Proof.LibChannelShift
import proofs.«124492_g2000404111516997_pallasbulk_667_3_alg».proof.Proof.EcaSpec

open scoped BigOperators

noncomputable section

namespace Cert.ReferenceIdeal.Body

open Cert.ReferenceIdeal Cert.ReferenceIdeal.Gen Idealize.ShloMosaic Idealize.ShloMosaic.ValueIdx
open Cert.Lib.BlockReads Cert.Lib.ChannelShift Cert.Eca

/-- The fill value of the padded row and the start of the gate's sum: the zero word read at the ideal instance. -/
abbrev zeroWord : EReal := (Scalar.ofBits .f32 0x00000000#32 : Ideal .f32)

/-- The pooled sums of the block's channels, over the flattened spatial axis. -/
def blockPool (v0 : Vec Ideal S1x512x784 .f32) (c : Fin 512) : EReal := ∑ k : Fin 784, v0 (ix3 0 c k)

/-- Row j of the 3×512 block of taps, taken as a 1×512 slice, read at a channel. -/
theorem tap_row_apply (v : Vec Ideal S3x512 .f32) (j : Fin 3) (hs : S3x512.Slices ![j.val, 0] S1x512) (c : Fin 512) :
    extractStridedSlice S1x512 ![j.val, 0] v hs (ix2 0 c) = v (ix2 j c) :=
  extractStridedSlice_apply _ v hs _ (ix2 j c) fun a => by
    match a with
    | ⟨0, _⟩ => show j.val = j.val + 0; omega
    | ⟨1, _⟩ => show c.val = 0 + c.val; omega

/-- The body's stored value at an entry of the block. -/
theorem pay_apply (v0 v21 : Vec Ideal S1x512x784 .f32) (v3 : Vec Ideal S3x512 .f32) (c : Fin 512) (k : Fin 784) :
    k0_pay1 v0 v3 v21 (ix3 0 c k)
      = v21 (ix3 0 c k) * gate zeroWord (fun c => v3 (ix2 0 c)) (fun c => v3 (ix2 1 c)) (fun c => v3 (ix2 2 c)) (blockPool v0) c := by
  have hP : (fun c' : Fin 512 => multiReduction (F := Ideal) .add [2] S1x512 (shapeCast S1x512x784 v0 shapeCasts_S1x512x784_S1x512x784)
        0x00000000#32 reduces_S1x512x784_S1x512 (.inl rfl) rfl (ix2 0 c')) = blockPool v0 :=
    funext fun c' => (sum_last_axis_apply _ _ reduces_S1x512x784_S1x512 (.inl rfl) rfl 0 c').trans
      (Finset.sum_congr rfl fun k _ => congrFun (shapeCast_self v0 _) _)
  unfold k0_pay1
  simp only [shapeCast_self]
  refine (mulf_apply _ _ _).trans (congrArg (v21 (ix3 0 c k) * ·) ?_)
  refine (broadcast_cols_apply _ _ _ 0 c k).trans ?_
  unfold gate
  refine congrArg Ideal.logistic ?_
  refine congrArg₂ (· + ·) (congrArg₂ (· + ·) (congrArg₂ (· + ·) rfl (congrArg₂ (· * ·) ?_ ?_)) (congrArg₂ (· * ·) ?_ ?_)) (congrArg₂ (· * ·) ?_ ?_)
  · exact tap_row_apply v3 0 _ c
  · exact (padded_slice0_apply _ _ _ _ c).trans (congrArg (fun P => prev zeroWord P c) hP)
  · exact tap_row_apply v3 1 _ c
  · exact (padded_slice1_apply _ _ _ _ c).trans (congrFun hP c)
  · exact tap_row_apply v3 2 _ c
  · exact (padded_slice2_apply _ _ _ _ c).trans (congrArg (fun P => next zeroWord P c) hP)

end Cert.ReferenceIdeal.Body

end
-- ==== Proof.EcaFlat.lean ====
/-
  The same map computed on the array with its two spatial axes flattened into one of 784 positions, and why it is
  the same. On the flattened array X[b, c, k] the pooled sum of a channel is Σ_k X[b, c, k]; a sum over the 784
  flattened positions is the sum over the 28 columns of the sum down each column (addition on the extended reals is
  commutative and associative, so the order of summation does not matter); the gate is then the same function of the
  same pooled sums, and un-flattening the scaled array gives the scaled un-flattened array, entry by entry.
-/
import proofs.«124492_g2000404111516997_pallasbulk_667_3_alg».proof.Proof.EcaSpec
import proofs.«124492_g2000404111516997_pallasbulk_667_3_alg».proof.Proof.LibPlaneReads

open scoped BigOperators

noncomputable section

namespace Cert.Eca

open Idealize.ShloMosaic Idealize.ShloMosaic.ValueIdx Cert.Lib.ChannelShift Cert.Lib.PlaneReads

/-- The pooled sum of channel c of batch element b of the flattened array. -/
def flatPool (X : (⟨3, ![64, 512, 784]⟩ : Shape).Idx → EReal) (b : Fin 64) (c : Fin 512) : EReal :=
  ∑ k : Fin 784, X (ix3 b c k)

/-- The flattened result array: every entry of X scaled by the gate of its batch element and channel. -/
def flatScaled (z : EReal) (X : (⟨3, ![64, 512, 784]⟩ : Shape).Idx → EReal) (W : (⟨2, ![3, 512]⟩ : Shape).Idx → EReal) :
    (⟨3, ![64, 512, 784]⟩ : Shape).Idx → EReal :=
  fun i => X i * gate z (tap W 0) (tap W 1) (tap W 2) (flatPool X (i 0)) (i 1)

theorem flatScaled_apply (z : EReal) (X : (⟨3, ![64, 512, 784]⟩ : Shape).Idx → EReal) (W : (⟨2, ![3, 512]⟩ : Shape).Idx → EReal)
    (b : Fin 64) (c : Fin 512) (k : Fin 784) :
    flatScaled z X W (ix3 b c k) = X (ix3 b c k) * gate z (tap W 0) (tap W 1) (tap W 2) (flatPool X b) c := rfl

theorem plane : (784 : Nat) = 28 * 28 := rfl

/-- The pooled sums of the flattened array are those of the array. -/
theorem flatPool_flatten (x : (⟨4, ![64, 512, 28, 28]⟩ : Shape).Idx → EReal)
    (h : (⟨4, ![64, 512, 28, 28]⟩ : Shape).ShapeCasts ⟨3, ![64, 512, 784]⟩) (b : Fin 64) :
    flatPool (shapeCast ⟨3, ![64, 512, 784]⟩ x h) b = pool x b := by
  funext c
  unfold flatPool pool
  rw [sum_flat plane]
  exact Finset.sum_congr rfl fun w _ => Finset.sum_congr rfl fun r _ => flatten_apply x h plane b c r w _ rfl

/-- Flatten, scale, un-flatten is scale. -/
theorem unflatten_flatScaled (z : EReal) (x : (⟨4, ![64, 512, 28, 28]⟩ : Shape).Idx → EReal) (W : (⟨2, ![3, 512]⟩ : Shape).Idx → EReal)
    (h : (⟨4, ![64, 512, 28, 28]⟩ : Shape).ShapeCasts ⟨3, ![64, 512, 784]⟩)
    (h' : (⟨3, ![64, 512, 784]⟩ : Shape).ShapeCasts ⟨4, ![64, 512, 28, 28]⟩) :
    shapeCast ⟨4, ![64, 512, 28, 28]⟩ (flatScaled z (shapeCast ⟨3, ![64, 512, 784]⟩ x h) W) h' = scaled z x W := by
  funext i
  obtain ⟨b, c, r, s, rfl⟩ : ∃ (b : Fin 64) (c : Fin 512) (r s : Fin 28), i = ix4 b c r s := ⟨i 0, i 1, i 2, i 3, eq_ix4 i⟩
  refine (unflatten_apply _ h' plane b c r s (flat plane r s) rfl).trans ?_
  rw [flatScaled_apply, scaled_apply, flatPool_flatten, flatten_apply x h plane b c r s _ rfl]

end Cert.Eca

end
-- ==== Proof.RefValue.lean ====
/-
  The reference's result array as one function of its arguments, on the extended reals. Before the call the input is
  flattened to X[b, c, k], k = 28·h + w, and the taps are built from the weights; grid point t works on batch element t
  and writes back block t of the flattened scaled array X[b, c, k] · gate(b, c), the gate from the channel sums
  Σ_k X[b, c, k]; the 64 blocks tile the call's result, and the line after the call un-flattens it. Un-flattening the
  flattened scaled array gives the scaled array of the un-flattened input.
-/
import proofs.«124492_g2000404111516997_pallasbulk_667_3_alg».proof.Proof.Gen.ReferenceIdeal.Frame
import proofs.«124492_g2000404111516997_pallasbulk_667_3_alg».proof.Proof.RefBody
import proofs.«124492_g2000404111516997_pallasbulk_667_3_alg».proof.Proof.EcaFlat
import Idealize.ShloMosaic.Lib.Pipeline.Value
import Idealize.ShloMosaic.Lib.StableHlo.Run

open scoped BigOperators

noncomputable section

open Idealize.ShloMosaic Idealize.ShloMosaic.TcCoe Idealize.SL.Sem
open Idealize.ShloMosaic.Pipeline (Dat)

namespace Cert.ReferenceIdeal.Whole

open Cert.ReferenceIdeal Cert.ReferenceIdeal.Gen Cert.ReferenceIdeal.Body Idealize.ShloMosaic.ValueIdx Cert.Eca

variable (m : (ℓ : Loc nD τ sig) → Buf (Elt Ideal) ℓ) (ρ : Dev nD → PrngReg)

/-- The taps array the call receives, as a function of the weight argument. -/
theorem taps_eq (c : Dev nD) : (V m c main_v4 : S3x512.Idx → EReal)
    = taps shapeCasts_S512x1x3_S512x3 transposes_S512x3_S3x512_1_0 bcast_S_S3x512 (m ((c : Thread nD τ).loc main_arg1)) := by
  show StableHlo.after hostOps0 (fun b => m (c, b)) (Proc.devRef .tc main_v4) = _
  after_results
  rfl

/-- The input array the call receives: the argument with its two spatial axes flattened. -/
theorem flat_eq (c : Dev nD) : (V m c main_v0 : S64x512x784.Idx → EReal)
    = shapeCast S64x512x784 (m ((c : Thread nD τ).loc main_arg0)) shapeCasts_S64x512x28x28_S64x512x784 := by
  show StableHlo.after hostOps0 (fun b => m (c, b)) (Proc.devRef .tc main_v0) = _
  after_results
  rfl

/-- The line after the call un-flattens the call's result array. -/
theorem tail_eq (c : Dev nD) : Pipeline.afterTail₀ cfgs (dats m) 0 (V0 m) [hostOps1] c main_v6
    = shapeCast S64x512x28x28 ((dats m 0 c).arrAt 2 cfg0.N) shapeCasts_S64x512x784_S64x512x28x28 := by
  unfold Pipeline.afterTail₀
  show StableHlo.after hostOps1 _ (Proc.devRef .tc main_v6) = _
  after_results
  have e := Pipeline.withArrays_arr (cfgs 0).spec launch0.win.arr_inj c (V0 m c) (fun w => (dats m 0 c).arrAt w (cfgs 0).N) 2
  exact congrArg (fun A => shapeCast S64x512x28x28 A shapeCasts_S64x512x784_S64x512x28x28) e

/-- The blocks' positions: point t's input and output blocks are block t along the batch axis, the taps block is the
    whole array. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0
    ∧ win0_2.index t (2 : Fin 3) = 0 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-- The batch element a grid point works on. -/
def batchOf (t : Fin cfg0.N) : Fin 64 := ⟨t.val, lt_of_lt_of_eq t.isLt N_0⟩

/-- One batch element: if the loaded block is X[b, :, :] and the loaded taps are W, the stored value at (0, c, k) is the
    flattened scaled array at (b, c, k). -/
theorem point_eq (X : S64x512x784.Idx → EReal) (W : S3x512.Idx → EReal) (b : Fin 64)
    (x0 : Vec Ideal S1x512x784 .f32) (x1 : Vec Ideal S3x512 .f32)
    (h0 : ∀ (c : Fin 512) (k : Fin 784), x0 (ix3 0 c k) = X (ix3 b c k)) (h1 : x1 = W)
    (c : Fin 512) (k : Fin 784) :
    k0_pay1 x0 x1 x0 (ix3 0 c k) = flatScaled zeroWord X W (ix3 b c k) := by
  subst h1
  rw [pay_apply, flatScaled_apply, h0]
  have eP : blockPool x0 = flatPool X b := funext fun c => Finset.sum_congr rfl fun k _ => h0 c k
  rw [eP]
  rfl

/-- The input block at point t is the flattened input's batch element t. -/
theorem iblk0_apply (c : Dev nD) (t : Fin cfg0.N) (c' : Fin 512) (k : Fin 784) :
    (iblk m c 0 t : Vec Ideal S1x512x784 .f32) (ix3 0 c' k) = (V m c main_v0 : S64x512x784.Idx → EReal) (ix3 (batchOf t) c' k) := by
  obtain ⟨e0, e1, e2, -⟩ := idx_facts t
  unfold iblk
  rw [View.read_apply]
  show V m c main_v0 _ = V m c main_v0 _
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * c'.val = c'.val; omega
  | ⟨2, _⟩ => show win0_0.index t (2 : Fin 3) * 784 + 1 * k.val = k.val; omega

/-- The taps block at every point is the whole taps array. -/
theorem iblk1_eq (c : Dev nD) (t : Fin cfg0.N) :
    (iblk m c 1 t : Vec Ideal S3x512 .f32) = (V m c main_v4 : S3x512.Idx → EReal) := by
  obtain ⟨-, -, -, e4, e5, -⟩ := idx_facts t
  funext y
  unfold iblk
  rw [View.read_apply]
  show V m c main_v4 _ = V m c main_v4 _
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 512 + 1 * (y 1).val = (y 1).val; omega

/-- What point t writes back is block t of the flattened scaled array. -/
theorem flushed_eq (c : Dev nD) (t : Fin cfg0.N) :
    (dats m 0 c).flushed 2 t = ((cfg0.win 2).blk t).view.read (Elt Ideal) (flatScaled zeroWord (V m c main_v0) (V m c main_v4)) := by
  show (cfg0.win 2).cut (grid0.coords t) ((dats m 0 c).after 2 t) = _
  rw [after0_2]
  unfold out0_2
  rw [View.canon_unit_zero hz3]
  simp only [View.ld_unit_zero (S := S1x512x784) hz3, View.ld_unit_zero (S := S3x512) hz2]
  obtain ⟨-, -, -, -, -, e6, e7, e8⟩ := idx_facts t
  funext j
  show k0_pay1 (iblk m c 0 t) (iblk m c 1 t) (iblk m c 0 t) j
    = flatScaled zeroWord (V m c main_v0) (V m c main_v4) (((cfg0.win 2).blk t).view.emb j)
  have hj : j = ix3 0 (j 1) (j 2) := by
    funext a
    match a with
    | ⟨0, _⟩ => exact Fin.ext (by have hj0 : (j 0).val < 1 := (j 0).isLt; show (j 0).val = 0; omega)
    | ⟨1, _⟩ => rfl
    | ⟨2, _⟩ => rfl
  have hemb : ((cfg0.win 2).blk t).view.emb j = ix3 (batchOf t) (j 1) (j 2) := by
    funext a; apply Fin.ext
    match a with
    | ⟨0, _⟩ => show win0_2.index t (0 : Fin 3) * 1 + 1 * (j 0).val = t.val; have hj0 : (j 0).val < 1 := (j 0).isLt; omega
    | ⟨1, _⟩ => show win0_2.index t (1 : Fin 3) * 512 + 1 * (j 1).val = (j 1).val; omega
    | ⟨2, _⟩ => show win0_2.index t (2 : Fin 3) * 784 + 1 * (j 2).val = (j 2).val; omega
  rw [hemb, hj]
  exact point_eq _ _ (batchOf t) _ _ (fun c' k => iblk0_apply m c t c' k) (iblk1_eq m c t) _ _

/-- An index of the call's result array is in point t's block iff each coordinate is in the block's range on its axis. -/
theorem mem_blk (t : Fin cfg0.N) (i : S64x512x784.Idx) :
    i ∈ ((cfg0.win 2).blk t).view.set ↔ ∀ a : Fin 3, win0_2.index t a * S1x512x784.size a ≤ (i a).val ∧ (i a).val < win0_2.index t a * S1x512x784.size a + S1x512x784.size a := by
  show i ∈ ((View.whole main_v5).slice (win0_2.rect t)).set ↔ _
  rw [View.set_slice_whole, Rect.mem_set_unit]
  exact Iff.rfl

/-- Every index (b, c, k) lies in block b, so the call's result array ends holding the flattened scaled array. -/
theorem final (c : Dev nD) : (dats m 0 c).arrAt 2 cfg0.N = flatScaled zeroWord (V m c main_v0) (V m c main_v4) := by
  refine (dats m 0 c).arrAt_eq_of_cover 2 _ (fun t _ => flushed_eq m c t) fun i => ?_
  have hi0 : (i 0).val < 64 := (i 0).isLt
  have hi1 : (i 1).val < 512 := (i 1).isLt
  have hi2 : (i 2).val < 784 := (i 2).isLt
  have hN : (i 0).val < cfg0.N := by rw [show cfg0.N = 64 from N_0]; exact hi0
  refine ⟨⟨(i 0).val, hN⟩, flush0_2 _, ?_⟩
  rw [mem_blk]
  obtain ⟨-, -, -, -, -, e6', e7, e8⟩ := idx_facts ⟨(i 0).val, hN⟩
  have e6 : win0_2.index ⟨(i 0).val, hN⟩ (0 : Fin 3) = (i 0).val := e6'
  intro a
  match a with
  | ⟨0, _⟩ => show win0_2.index _ (0 : Fin 3) * 1 ≤ (i 0).val ∧ (i 0).val < win0_2.index _ (0 : Fin 3) * 1 + 1; rw [e6]; omega
  | ⟨1, _⟩ => show win0_2.index _ (1 : Fin 3) * 512 ≤ (i 1).val ∧ (i 1).val < win0_2.index _ (1 : Fin 3) * 512 + 512; rw [e7]; omega
  | ⟨2, _⟩ => show win0_2.index _ (2 : Fin 3) * 784 ≤ (i 2).val ∧ (i 2).val < win0_2.index _ (2 : Fin 3) * 784 + 784; rw [e8]; omega

/-- The program's result: the scaled array of the arguments. -/
theorem result_eq (c : Dev nD) : Pipeline.afterTail₀ cfgs (dats m) 0 (V0 m) [hostOps1] c main_v6
    = scaled zeroWord (m ((c : Thread nD τ).loc main_arg0))
        (taps shapeCasts_S512x1x3_S512x3 transposes_S512x3_S3x512_1_0 bcast_S_S3x512 (m ((c : Thread nD τ).loc main_arg1))) := by
  rw [tail_eq, final, flat_eq, taps_eq]
  exact unflatten_flatScaled _ _ _ _ _

/-- The run: the result array at the scaled array of the arguments, the arguments unchanged. -/
theorem run : θ_run defs (onTc (τ := τ) (main (F := Ideal))) ⟨m, fun _ => 0, ρ⟩ fun r => ∀ c : Dev nD,
      r.2.mem ((c : Thread nD τ).loc main_v6) = scaled zeroWord (m ((c : Thread nD τ).loc main_arg0))
        (taps shapeCasts_S512x1x3_S512x3 transposes_S512x3_S3x512_1_0 bcast_S_S3x512 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.ReferenceIdeal.Whole
end
-- ==== Proof.lean ====
/-
  The kernel scales every entry x[b, c, h, w] of a [64, 512, 28, 28] array by a per-(batch, channel) gate: the
  logistic function of a three-tap combination, along the channel axis, of the channel's spatial sums, the taps being
  the weights divided by 784. The kernel keeps the two spatial axes and sums first down the columns and then along the
  rows; the reference flattens them to one axis of 784 positions, sums along it, reads the neighbouring channels from a
  row padded by a zero cell at each end where the kernel shifts the row and fills with zero, and un-flattens its result.
  On the extended reals both compute the same array: addition is commutative and associative, so the order of the
  784 terms of a channel's sum does not matter, and every other operation is the same operation of the same operands.
  No fact about the inputs' finiteness is needed.

  Kernel side: Proof/KernelBody.lean (one block's stored value at an entry) and Proof/KernelValue.lean (the result
  array after the run). Reference side: Proof/RefBody.lean and Proof/RefValue.lean. The common specification is
  Proof/EcaSpec.lean; that flatten–scale–un-flatten is scale is Proof/EcaFlat.lean. The three frame claims are the
  generated frame certificates; the ideal pass rewrote nothing, so the preservation claim is trivially true.
-/
import proofs.«124492_g2000404111516997_pallasbulk_667_3_alg».proof.Defs
import proofs.«124492_g2000404111516997_pallasbulk_667_3_alg».proof.Proof.Gen.Kernel
import proofs.«124492_g2000404111516997_pallasbulk_667_3_alg».proof.Proof.Gen.Kernel.Skeleton
import proofs.«124492_g2000404111516997_pallasbulk_667_3_alg».proof.Proof.Gen.Kernel.Launch
import proofs.«124492_g2000404111516997_pallasbulk_667_3_alg».proof.Proof.Gen.Kernel.Points
import proofs.«124492_g2000404111516997_pallasbulk_667_3_alg».proof.Proof.Gen.Kernel.Frame
import proofs.«124492_g2000404111516997_pallasbulk_667_3_alg».proof.Proof.Gen.KernelIdeal
import proofs.«124492_g2000404111516997_pallasbulk_667_3_alg».proof.Proof.Gen.KernelIdeal.Skeleton
import proofs.«124492_g2000404111516997_pallasbulk_667_3_alg».proof.Proof.Gen.KernelIdeal.Launch
import proofs.«124492_g2000404111516997_pallasbulk_667_3_alg».proof.Proof.Gen.KernelIdeal.Points
import proofs.«124492_g2000404111516997_pallasbulk_667_3_alg».proof.Proof.Gen.KernelIdeal.Frame
import proofs.«124492_g2000404111516997_pallasbulk_667_3_alg».proof.Proof.Gen.KernelIdeal.Value
import proofs.«124492_g2000404111516997_pallasbulk_667_3_alg».proof.Proof.Gen.ReferenceIdeal
import proofs.«124492_g2000404111516997_pallasbulk_667_3_alg».proof.Proof.Gen.ReferenceIdeal.Skeleton
import proofs.«124492_g2000404111516997_pallasbulk_667_3_alg».proof.Proof.Gen.ReferenceIdeal.Launch
import proofs.«124492_g2000404111516997_pallasbulk_667_3_alg».proof.Proof.Gen.ReferenceIdeal.Points
import proofs.«124492_g2000404111516997_pallasbulk_667_3_alg».proof.Proof.Gen.ReferenceIdeal.Frame
import proofs.«124492_g2000404111516997_pallasbulk_667_3_alg».proof.Proof.Gen.Pre_finite_inputs
import proofs.«124492_g2000404111516997_pallasbulk_667_3_alg».proof.Proof.KernelValue
import proofs.«124492_g2000404111516997_pallasbulk_667_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both runs end with the result array at the scaled array of their arguments; the arguments agree, and the two
    programs build the taps from the weights by the same three operations. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
